-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S32768x1 : Shape := ⟨2, ![32768, 1]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S32768x1 : S_.BroadcastsInDim S32768x1 (![] : Fin 0 → Fin S32768x1.rank)
  reducesTo_S32768x1_S_d0_1 : S32768x1.ReducesTo [0, 1] S_

variable [Facts]

def fn_part1 {F : FTy → Type} [FloatOps F] (main_arg4 : FVec F S32768x1024 .f32) (main_v13 : IVec S_ 1) (main_v16 : IVec S32768x1 1) : IVec S_ 1 :=
  let main_c_5 : IVec S_ 1 := constantI S_ 1 1#1
  let main_v17 : IVec S_ 1 := (fun x v => Host.reduce IntOp.andi x v reducesTo_S32768x1_S_d0_1 h_S_) main_v16 main_c_5
  let main_v18 : IVec S_ 1 := andi main_v13 main_v17
  let main_v19 : FVec F S32768x1024 .f32 := Host.absf main_arg4
  let main_cst_6 : FVec F S_ .f32 := constant S_ .f32 0x7F800000#32
  let main_v20 : FVec F S32768x1024 .f32 := broadcastInDim S32768x1024 ![] bcast_S_S32768x1024 main_cst_6
  let main_v21 : IVec S32768x1024 1 := cmpf .olt main_v19 main_v20
  let main_c_7 : IVec S_ 1 := constantI S_ 1 1#1
  let main_v22 : IVec S_ 1 := (fun x v => Host.reduce IntOp.andi x v reducesTo_S32768x1024_S_d0_1 h_S_) main_v21 main_c_7
  let main_v23 : IVec S_ 1 := andi main_v18 main_v22
  main_v23

def fn {F : FTy → Type} [FloatOps F] (main_arg0 : FVec F S32768x1024 .f32) (main_arg1 : FVec F S1024x1024 .f32) (main_arg2 : FVec F S32768x1024 .f32) (main_arg3 : FVec F S32768x1 .f32) (main_arg4 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S32768x1024 .f32 := Host.absf main_arg2
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_c_3 : IVec S_ 1 := constantI S_ 1 1#1
  let main_v12 : IVec S_ 1 := (fun x v => Host.reduce IntOp.andi x v reducesTo_S32768x1024_S_d0_1 h_S_) main_v11 main_c_3
  let main_v13 : IVec S_ 1 := andi main_v8 main_v12
  let main_v14 : FVec F S32768x1 .f32 := Host.absf main_arg3
  let main_cst_4 : FVec F S_ .f32 := constant S_ .f32 0x7F800000#32
  let main_v15 : FVec F S32768x1 .f32 := broadcastInDim S32768x1 ![] bcast_S_S32768x1 main_cst_4
  let main_v16 : IVec S32768x1 1 := cmpf .olt main_v14 main_v15
  fn_part1 (F := F) main_arg4 main_v13 main_v16
-- ==== Kernel.lean ====
abbrev S32768x1024 : Shape := ⟨2, ![32768, 1024]⟩
abbrev S1024x1024 : Shape := ⟨2, ![1024, 1024]⟩
abbrev S32768x1 : Shape := ⟨2, ![32768, 1]⟩
abbrev S64x8x128 : Shape := ⟨3, ![64, 8, 128]⟩
abbrev S512x1024 : Shape := ⟨2, ![512, 1024]⟩
abbrev S512x1 : Shape := ⟨2, ![512, 1]⟩
abbrev S1x8x128 : Shape := ⟨3, ![1, 8, 128]⟩
abbrev S512 : Shape := ⟨1, ![512]⟩
abbrev S1 : Shape := ⟨1, ![1]⟩
abbrev S1x1 : Shape := ⟨2, ![1, 1]⟩
abbrev S1x1x1 : Shape := ⟨3, ![1, 1, 1]⟩
abbrev S64x1x1 : Shape := ⟨3, ![64, 1, 1]⟩
abbrev S64 : Shape := ⟨1, ![64]⟩
abbrev S_ : Shape := ⟨0, ![]⟩

abbrev nBuf : Space → Nat
  | .hbm => 12
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .hbm, ⟨3, _⟩ => ⟨S32768x1, .f32⟩
  | .hbm, ⟨4, _⟩ => ⟨S32768x1024, .f32⟩
  | .hbm, ⟨5, _⟩ => ⟨S1024x1024, .bf16⟩
  | .hbm, ⟨6, _⟩ => ⟨S64x8x128, .f32⟩
  | .hbm, ⟨7, _⟩ => ⟨S64x1x1, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S1, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1, .f32⟩
  | .local _ .vmem, ⟨6, _⟩ => ⟨S512x1, .f32⟩
  | .local _ .vmem, ⟨7, _⟩ => ⟨S512x1024, .f32⟩
  | .local _ .vmem, ⟨8, _⟩ => ⟨S512x1024, .f32⟩
  | .local _ .vmem, ⟨9, _⟩ => ⟨S1x8x128, .f32⟩
  | .local _ .vmem, ⟨10, _⟩ => ⟨S1x8x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  broadcasts_S512x1_S512x1024 : S512x1.Broadcasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S64x8x128_S64x1x1_0_0_0 : S64x8x128.Slices ![0, 0, 0] S64x1x1
  shapeCasts_S64x1x1_S64 : S64x1x1.ShapeCasts S64
  reducesTo_S64_S_d0 : S64.ReducesTo [0] S_
  h_S_ : 0 < S_.numel
  shapeCasts_S_S1 : S_.ShapeCasts S1
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S32768x1024.size a
  hwx0_2 : ∀ i : grid0.Coords, EltTy.bits .f32 = 32 ∨ (Rect.block (s := S32768x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S32768x1.size a
  hwx0_3 : ∀ i : grid0.Coords, EltTy.bits .f32 = 32 ∨ (Rect.block (s := S32768x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S32768x1024.size a
  hwx0_4 : ∀ i : grid0.Coords, EltTy.bits .f32 = 32 ∨ (Rect.block (s := S32768x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S64x8x128.size a
  hwx0_5 : ∀ i : grid0.Coords, EltTy.bits .f32 = 32 ∨ (Rect.block (s := S64x8x128) S1x8x128.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S32768x1 : Shape := ⟨2, ![32768, 1]⟩
abbrev S_ : Shape := ⟨0, ![]⟩
abbrev S32768 : Shape := ⟨1, ![32768]⟩
abbrev S1 : Shape := ⟨1, ![1]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | .hbm, ⟨3, _⟩ => ⟨S32768x1, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1024, .f32⟩
  | .hbm, ⟨46, _⟩ => ⟨S32768x1024, .f32⟩
  | .hbm, ⟨47, _⟩ => ⟨S_, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768, .f32⟩
  | .hbm, ⟨59, _⟩ => ⟨S32768x1024, .f32⟩
  | .hbm, ⟨60, _⟩ => ⟨S_, .f32⟩
  | .hbm, ⟨61, _⟩ => ⟨S32768, .f32⟩
  | .hbm, ⟨62, _⟩ => ⟨S32768, .f32⟩
  | .hbm, ⟨63, _⟩ => ⟨S32768, .f32⟩
  | .hbm, ⟨64, _⟩ => ⟨S32768, .f32⟩
  | .hbm, ⟨65, _⟩ => ⟨S_, .f32⟩
  | .hbm, ⟨66, _⟩ => ⟨S32768, .f32⟩
  | .hbm, ⟨67, _⟩ => ⟨S32768, .f32⟩
  | .hbm, ⟨68, _⟩ => ⟨S32768, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S1, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_cst_9 : Ref sig .tc := ⟨.hbm, 47, rfl⟩
abbrev main_v27 : Ref sig .tc := ⟨.hbm, 48, rfl⟩
abbrev main_v28 : Ref sig .tc := ⟨.hbm, 49, rfl⟩
abbrev main_cst_10 : Ref sig .tc := ⟨.hbm, 50, rfl⟩
abbrev main_v29 : Ref sig .tc := ⟨.hbm, 51, rfl⟩
abbrev main_cst_11 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_12 : Ref sig .tc := ⟨.hbm, 57, rfl⟩
abbrev main_v34 : Ref sig .tc := ⟨.hbm, 58, rfl⟩
abbrev main_v35 : Ref sig .tc := ⟨.hbm, 59, rfl⟩
abbrev main_cst_13 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_14 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_15 : Ref sig .tc := ⟨.hbm, 69, rfl⟩
abbrev main_v43 : Ref sig .tc := ⟨.hbm, 70, rfl⟩
abbrev main_cst_16 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]

class Facts₀ : Prop where
  bcast_S32768x1_S32768x1024_0_1 : S32768x1.BroadcastsInDim S32768x1024 (![0, 1] : Fin 2 → Fin S32768x1024.rank)
  bcast_S_S32768x1024 : S_.BroadcastsInDim S32768x1024 (![] : Fin 0 → Fin S32768x1024.rank)
  reducesTo_S32768x1024_S_d0_1 : S32768x1024.ReducesTo [0, 1] S_
  h_S_ : 0 < S_.numel
  reducesTo_S32768x1024_S32768_d1 : S32768x1024.ReducesTo [1] S32768
  shapeCasts_S32768x1_S32768 : S32768x1.ShapeCasts S32768
  bcast_S_S32768 : S_.BroadcastsInDim S32768 (![] : Fin 0 → Fin S32768.rank)
  reducesTo_S32768_S_d0 : S32768.ReducesTo [0] S_
  shapeCasts_S_S1 : S_.ShapeCasts S1
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.Reals.lean ====
/-
  Extended reals that are real numbers.

  The two programs compute one loss by differently grouped arithmetic.  On the extended reals addition and
  multiplication are commutative and associative everywhere, but multiplication distributes over addition only away
  from the infinities.  So the three laws that regroup a product over a sum are stated here for extended reals known
  to be real: each is moved to the reals, proved there, and moved back.

  * `IsReal x`: `x` is the cast of a real number; closed under sums, differences, products and finite sums, and
    true of anything squeezed between two reals.
  * The float literals the programs spell, as the rationals their words denote.  Two facts about them matter: the
    word of 0.6 is exactly half the word of 1.2 (same significand, exponent one lower), and the others are real.
  * `sub_sub_real`:  w - s·q - s·t = w - s·(q + t).
  * `pow_abs_two`:   |d| to the power 2 is d·d.
  * `mul_sum_real`:  c · Σ f = Σ c · f.
-/
import Idealize.ShloMosaic.PureOps.Ideal
import Idealize.ShloMosaic.PureOps.Ideal.Laws

noncomputable section

namespace Cert.RoundLoss

open Idealize.ShloMosaic
open scoped BigOperators

/-- An extended real that is a real number. -/
def IsReal (x : EReal) : Prop := ∃ r : ℝ, x = (r : EReal)

namespace IsReal

theorem coe (r : ℝ) : IsReal (r : EReal) := ⟨r, rfl⟩
theorem zero : IsReal (0 : EReal) := ⟨0, rfl⟩
theorem one : IsReal (1 : EReal) := ⟨1, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem sum {ι : Type} (s : Finset ι) {f : ι → EReal} (h : ∀ i, IsReal (f i)) : IsReal (∑ i ∈ s, f i) := by
  classical
  induction s using Finset.induction_on with
  | empty => simpa using zero
  | insert a s ha ih => rw [Finset.sum_insert ha]; exact (h a).add ih

/-- Anything between two reals is real. -/
theorem of_bounds {x : EReal} (a b : ℝ) (ha : (a : EReal) ≤ x) (hb : x ≤ (b : EReal)) : IsReal x :=
  ⟨x.toReal, (EReal.coe_toReal (ne_top_of_le_ne_top (EReal.coe_ne_top b) hb)
    (ne_bot_of_le_ne_bot (EReal.coe_ne_bot a) ha)).symm⟩

end IsReal

/-- The cast of a real sum is the sum of the casts. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The float literals -/

theorem word_zero : Ideal.ofBits .f32 0x00000000#32 = 0 := Ideal.ofBits_zero_f32

theorem word_one : Ideal.ofBits .f32 0x3F800000#32 = ((1 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

/-- The f32 nearest 1.2: significand 10066330, exponent 0. -/
theorem word_six_fifths : Ideal.ofBits .f32 0x3F99999A#32 = ((5033165 / 4194304 : ℝ) : EReal) := by
  simp [Ideal.ofBits, Ideal.ieee, -EReal.coe_mul]; norm_num

/-- The f32 nearest 0.6: the same significand, exponent -1. -/
theorem word_three_fifths : Ideal.ofBits .f32 0x3F19999A#32 = ((5033165 / 8388608 : ℝ) : EReal) := by
  simp [Ideal.ofBits, Ideal.ieee, -EReal.coe_mul]; norm_num

/-- Half of the word of 1.2 is the word of 0.6, exactly. -/
theorem half_mul_six_fifths :
    Ideal.ofBits .f32 0x3F000000#32 * Ideal.ofBits .f32 0x3F99999A#32 = Ideal.ofBits .f32 0x3F19999A#32 := by
  rw [word_half, word_six_fifths, word_three_fifths, ← EReal.coe_mul]
  congr 1
  norm_num

theorem word_tenth_real : IsReal (Ideal.ofBits .f32 0x3DCCCCCD#32) :=
  ⟨13421773 / 134217728, by simp [Ideal.ofBits, Ideal.ieee, -EReal.coe_mul]; norm_num⟩

theorem word_reg_real : IsReal (Ideal.ofBits .f32 0x3951B717#32) :=
  ⟨13743895 / 68719476736, by simp [Ideal.ofBits, Ideal.ieee, -EReal.coe_mul]; norm_num⟩

theorem word_geom_real : IsReal (Ideal.ofBits .f32 0x3D4CCCCD#32) :=
  ⟨13421773 / 268435456, by simp [Ideal.ofBits, Ideal.ieee, -EReal.coe_mul]; norm_num⟩

/-! ## The three laws -/

/-- Subtracting s·q and then s·t is subtracting s·(q + t), for reals. -/
theorem sub_sub_real {w s q t : EReal} (hw : IsReal w) (hs : IsReal s) (hq : IsReal q) (ht : IsReal t) :
    w - s * q - s * t = w - s * (q + t) := by
  obtain ⟨w, rfl⟩ := hw; obtain ⟨s, rfl⟩ := hs; obtain ⟨q, rfl⟩ := hq; obtain ⟨t, rfl⟩ := ht
  rw [← EReal.coe_mul, ← EReal.coe_mul, ← EReal.coe_sub, ← EReal.coe_sub, ← EReal.coe_add, ← EReal.coe_mul,
    ← EReal.coe_sub]
  congr 1
  ring

/-- The absolute value of a real, raised to the power the word of 2.0 denotes, is its square. -/
theorem pow_abs_two {d : EReal} (hd : IsReal d) :
    Ideal.pow (max d (-d)) (Ideal.ofBits .f32 0x40000000#32) = d * d := by
  obtain ⟨d, rfl⟩ := hd
  have habs : max (d : EReal) (-(d : EReal)) = ((|d| : ℝ) : EReal) := by
    rw [← EReal.coe_neg, abs_eq_max_neg]
    exact (EReal.coe_strictMono.monotone.map_max).symm
  rw [habs, word_two, Ideal.pow_coe_coe, ← EReal.coe_mul]
  congr 1
  rw [Real.rpow_eq_pow, Real.rpow_two, sq_abs, sq]

/-- A real factor moves inside a finite sum of reals. -/
theorem mul_sum_real {ι : Type} (s : Finset ι) {c : EReal} {f : ι → EReal} (hc : IsReal c)
    (hf : ∀ i, IsReal (f i)) : c * ∑ i ∈ s, f i = ∑ i ∈ s, c * f i := by
  obtain ⟨c, rfl⟩ := hc
  choose g hg using hf
  simp only [hg, ← EReal.coe_mul, ← coe_sum]
  congr 1
  exact Finset.mul_sum s g c

end Cert.RoundLoss

end
-- ==== Proof.RowLoss.lean ====
/-
  The rounding loss of a weight matrix, row by row, on the extended reals.

  A row of the matrix has weights w, a grid q with step s, and a rounding variable θ per entry.  The rounding variable
  is squashed into [0, 1]:  t = clip((tanh θ + 1)·0.6 − 0.1, 0, 1).  With the residual d = w − s·q − s·t and a
  matrix σ the row contributes three numbers:
    • the activation term   Σ_k (Σ_j d_j σ_jk) d_k,
    • the binary term       Σ_k (1 − (2 t_k − 1)²),
    • the geometry term     (2 (a − s·b))²  with  a = Σ_k (Σ_j w_j σ_jk)(w_k − s·q_k),  b = Σ_k (Σ_j w_j σ_jk) t_k.
  The loss is  Σ_rows activation + λ_reg · Σ_rows binary + λ · Σ_rows geometry.

  One program adds the three numbers up over blocks of 512 rows, scales and adds them per block, and then adds the
  64 block totals; the other adds each of the three over all rows first and scales once.  It also spells the residual
  w − s·(q + t), the square of 2t − 1 as a power of its absolute value, and 0.6 as 0.5 · 1.2.  `blocks_eq_whole`: for
  real weights, grid, steps and σ the two totals are equal.
-/
import proofs.«153995_j2276332667063_2_alg».proof.Proof.Reals

noncomputable section

namespace Cert.RoundLoss

open Idealize.ShloMosaic
open scoped BigOperators

/-! ## One entry, one row -/

/-- The squashed rounding variable, with 0.6 as one literal. -/
def squash (θ : EReal) : EReal :=
  min (Ideal.ofBits .f32 0x3F800000#32) (max (Ideal.ofBits .f32 0x00000000#32)
    ((Ideal.tanh θ + Ideal.ofBits .f32 0x3F800000#32) * Ideal.ofBits .f32 0x3F19999A#32
      - Ideal.ofBits .f32 0x3DCCCCCD#32))

/-- Spelt with 0.5 · 1.2 it is the same number: the product of the two literals is the literal 0.6, and
    multiplication of extended reals is associative. -/
theorem squash_split (θ : EReal) :
    min (Ideal.ofBits .f32 0x3F800000#32) (max (Ideal.ofBits .f32 0x00000000#32)
      ((Ideal.tanh θ + Ideal.ofBits .f32 0x3F800000#32) * Ideal.ofBits .f32 0x3F000000#32
        * Ideal.ofBits .f32 0x3F99999A#32 - Ideal.ofBits .f32 0x3DCCCCCD#32)) = squash θ := by
  unfold squash
  rw [mul_assoc, half_mul_six_fifths]

/-- It lies in [0, 1] whatever θ is, so it is real. -/
theorem squash_real (θ : EReal) : IsReal (squash θ) := by
  unfold squash
  rw [word_zero, word_one]
  refine IsReal.of_bounds 0 1 ?_ (min_le_left _ _)
  rw [EReal.coe_zero]
  exact le_min (EReal.coe_nonneg.mpr zero_le_one) (le_max_left _ _)

variable {n : ℕ}

/-- The residual of a row, subtracting s·q and then s·t. -/
def resid (w q t : Fin n → EReal) (s : EReal) : Fin n → EReal := fun k => w k - s * q k - s * t k

/-- The same, subtracting s·(q + t) at once. -/
def residSum (w q t : Fin n → EReal) (s : EReal) : Fin n → EReal := fun k => w k - s * (q k + t k)

theorem residSum_eq (w q t : Fin n → EReal) (s : EReal) (hw : ∀ k, IsReal (w k)) (hq : ∀ k, IsReal (q k))
    (ht : ∀ k, IsReal (t k)) (hs : IsReal s) : residSum w q t s = resid w q t s :=
  funext fun k => (sub_sub_real (hw k) hs (hq k) (ht k)).symm

/-- Σ_k (Σ_j u_j σ_jk) v_k. -/
def form (u : Fin n → EReal) (σ : Fin n → Fin n → EReal) (v : Fin n → EReal) : EReal :=
  ∑ k, (∑ j, u j * σ j k) * v k

theorem form_real {u v : Fin n → EReal} {σ : Fin n → Fin n → EReal} (hu : ∀ k, IsReal (u k))
    (hσ : ∀ j k, IsReal (σ j k)) (hv : ∀ k, IsReal (v k)) : IsReal (form u σ v) :=
  IsReal.sum _ fun k => (IsReal.sum _ fun j => (hu j).mul (hσ j k)).mul (hv k)

/-- 1 − (2t − 1)², the square as a product. -/
def binTerm (t : EReal) : EReal :=
  Ideal.ofBits .f32 0x3F800000#32
    - (Ideal.ofBits .f32 0x40000000#32 * t - Ideal.ofBits .f32 0x3F800000#32)
      * (Ideal.ofBits .f32 0x40000000#32 * t - Ideal.ofBits .f32 0x3F800000#32)

/-- 1 − |2t − 1|², the square as a power of the absolute value. -/
def binTermPow (t : EReal) : EReal :=
  Ideal.ofBits .f32 0x3F800000#32
    - Ideal.pow (max (Ideal.ofBits .f32 0x40000000#32 * t - Ideal.ofBits .f32 0x3F800000#32)
        (-(Ideal.ofBits .f32 0x40000000#32 * t - Ideal.ofBits .f32 0x3F800000#32)))
      (Ideal.ofBits .f32 0x40000000#32)

theorem two_t_sub_one_real {t : EReal} (ht : IsReal t) :
    IsReal (Ideal.ofBits .f32 0x40000000#32 * t - Ideal.ofBits .f32 0x3F800000#32) := by
  rw [word_two, word_one]; exact ((IsReal.coe 2).mul ht).sub (IsReal.coe 1)

theorem binTermPow_eq {t : EReal} (ht : IsReal t) : binTermPow t = binTerm t := by
  unfold binTermPow binTerm
  rw [pow_abs_two (two_t_sub_one_real ht)]

theorem binTerm_real {t : EReal} (ht : IsReal t) : IsReal (binTerm t) := by
  unfold binTerm
  have h := two_t_sub_one_real ht
  rw [word_one] at h ⊢
  exact (IsReal.coe 1).sub (h.mul h)

/-- The geometry term of a row. -/
def geom (w q t : Fin n → EReal) (s : EReal) (σ : Fin n → Fin n → EReal) : EReal :=
  (Ideal.ofBits .f32 0x40000000#32 * (form w σ (fun k => w k - s * q k) - s * form w σ t))
    * (Ideal.ofBits .f32 0x40000000#32 * (form w σ (fun k => w k - s * q k) - s * form w σ t))

theorem geom_real {w q t : Fin n → EReal} {s : EReal} {σ : Fin n → Fin n → EReal} (hw : ∀ k, IsReal (w k))
    (hq : ∀ k, IsReal (q k)) (ht : ∀ k, IsReal (t k)) (hs : IsReal s) (hσ : ∀ j k, IsReal (σ j k)) :
    IsReal (geom w q t s σ) := by
  unfold geom
  have h : IsReal (Ideal.ofBits .f32 0x40000000#32 * (form w σ (fun k => w k - s * q k) - s * form w σ t)) := by
    rw [word_two]
    exact (IsReal.coe 2).mul ((form_real hw hσ fun k => (hw k).sub (hs.mul (hq k))).sub
      (hs.mul (form_real hw hσ ht)))
  exact h.mul h

/-! ## A set of rows -/

variable {R : ℕ}

/-- The three sums over a set of rows, scaled and added: what one block contributes. -/
def rowsLoss (W Q Θ : Fin R → Fin n → EReal) (s : Fin R → EReal) (σ : Fin n → Fin n → EReal) : EReal :=
  (∑ p, form (resid (W p) (Q p) (fun k => squash (Θ p k)) (s p)) σ
          (resid (W p) (Q p) (fun k => squash (Θ p k)) (s p)))
    + Ideal.ofBits .f32 0x3951B717#32 * (∑ p, ∑ k, binTerm (squash (Θ p k)))
    + Ideal.ofBits .f32 0x3D4CCCCD#32 * (∑ p, geom (W p) (Q p) (fun k => squash (Θ p k)) (s p) σ)

/-- Row p of block i of a matrix of 64 blocks of 512 rows. -/
def blockRow (i : Fin 64) (p : Fin 512) : Fin 32768 :=
  ⟨512 * i.val + p.val, by have := i.isLt; have := p.isLt; omega⟩

/-- A sum over the 32768 rows is the sum over the blocks of the sums over each block's rows. -/
theorem sum_rows_blocks {β : Type} [AddCommMonoid β] (f : Fin 32768 → β) :
    ∑ r, f r = ∑ i : Fin 64, ∑ p : Fin 512, f (blockRow i p) := by
  have h := Equiv.sum_comp (finProdFinEquiv : Fin 64 × Fin 512 ≃ Fin (64 * 512)) f
  rw [← h, Fintype.sum_prod_type]
  refine Finset.sum_congr rfl fun i _ => Finset.sum_congr rfl fun p _ => congrArg f (Fin.ext ?_)
  show p.val + 512 * i.val = 512 * i.val + p.val
  omega

/-- The total taken block by block: the zero the final sum starts from, plus the 64 block contributions. -/
def blocksLoss (W Q Θ : Fin 32768 → Fin n → EReal) (s : Fin 32768 → EReal) (σ : Fin n → Fin n → EReal) : EReal :=
  Ideal.ofBits .f32 0x00000000#32
    + ∑ i : Fin 64, rowsLoss (fun p => W (blockRow i p)) (fun p => Q (blockRow i p)) (fun p => Θ (blockRow i p))
        (fun p => s (blockRow i p)) σ

/-- The total taken over all rows at once, in the other spelling of the residual and of the square. -/
def wholeLoss (W Q Θ : Fin 32768 → Fin n → EReal) (s : Fin 32768 → EReal) (σ : Fin n → Fin n → EReal) : EReal :=
  ((∑ r, form (residSum (W r) (Q r) (fun k => squash (Θ r k)) (s r)) σ
            (residSum (W r) (Q r) (fun k => squash (Θ r k)) (s r)))
    + Ideal.ofBits .f32 0x3951B717#32 * (∑ r, ∑ k, binTermPow (squash (Θ r k))))
    + Ideal.ofBits .f32 0x3D4CCCCD#32 * (∑ r, geom (W r) (Q r) (fun k => squash (Θ r k)) (s r) σ)

/-- For real weights, grid, steps and σ the two totals are equal. -/
theorem blocks_eq_whole (W Q Θ : Fin 32768 → Fin n → EReal) (s : Fin 32768 → EReal) (σ : Fin n → Fin n → EReal)
    (hW : ∀ r k, IsReal (W r k)) (hQ : ∀ r k, IsReal (Q r k)) (hs : ∀ r, IsReal (s r))
    (hσ : ∀ j k, IsReal (σ j k)) : blocksLoss W Q Θ s σ = wholeLoss W Q Θ s σ := by
  have hT : ∀ r k, IsReal (squash (Θ r k)) := fun r k => squash_real _
  unfold blocksLoss wholeLoss rowsLoss
  rw [word_zero, zero_add]
  -- the other spellings, row by row
  have e1 : ∀ r, residSum (W r) (Q r) (fun k => squash (Θ r k)) (s r)
      = resid (W r) (Q r) (fun k => squash (Θ r k)) (s r) :=
    fun r => residSum_eq _ _ _ _ (hW r) (hQ r) (hT r) (hs r)
  have e2 : ∀ r, ∑ k, binTermPow (squash (Θ r k)) = ∑ k, binTerm (squash (Θ r k)) :=
    fun r => Finset.sum_congr rfl fun k _ => binTermPow_eq (hT r k)
  simp only [e1, e2]
  -- all rows as blocks of rows
  rw [sum_rows_blocks (fun r => form (resid (W r) (Q r) (fun k => squash (Θ r k)) (s r)) σ
        (resid (W r) (Q r) (fun k => squash (Θ r k)) (s r))),
    sum_rows_blocks (fun r => ∑ k, binTerm (squash (Θ r k))),
    sum_rows_blocks (fun r => geom (W r) (Q r) (fun k => squash (Θ r k)) (s r) σ)]
  -- the real scales move inside the sums over the blocks
  rw [mul_sum_real _ word_reg_real (fun i => IsReal.sum _ fun p => IsReal.sum _ fun k => binTerm_real (hT _ k)),
    mul_sum_real _ word_geom_real (fun i => IsReal.sum _ fun p =>
      geom_real (hW _) (hQ _) (hT _) (hs _) hσ),
    ← Finset.sum_add_distrib, ← Finset.sum_add_distrib]

end Cert.RoundLoss

end
-- ==== Proof.LibKeepdims.lean ====
/-
  A reduction that keeps its axis (a row sum with keepdims), read at an index written by coordinates.

  A row-wise statistic of an `[a, b]` vector — its sum over the lanes — is a vector `[a]`; kept as a column it is
  cast to `[a, 1]` and broadcast back over the `b` lanes.  Three readings make that chain transparent at an
  index `(p, c)`:
  • the lane sum at row `p` is the sum, over `k : Fin b`, of the entries `(p, k)`;
  • the cast `[a] → [a, 1]` reads, at `(i, u)`, the vector at `i` (the unit coordinate `u` carries nothing);
  • the broadcast `[a, 1] → [a, b]` reads, at `(p, c)`, the column's entry of row `p`.
  The row-major position of `(i, u)` in `[a, 1]` is `i · 1 + u = i`, that of `i` in `[a]` is `i`: the cast is the
  identity on positions.  A broadcast keeps a coordinate on an axis of extent other than one and reads `0` on a unit
  axis; when `a = 1` the row coordinate is `0` anyway.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx
open scoped BigOperators

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum over the lanes of an `[a, b]` vector, read at row `p`, is the sum of that row's
    entries.  The side conditions are arguments, so the lemma meets a reduction whatever proofs it carries. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.Keepdims
-- ==== Proof.LibColReduce.lean ====
/-
  Columns of a matrix on the extended reals: a reduction over the ROWS of an `[a, b]` matrix, read at column `q`.

  • The sum over axis 0 is the `Fin a`-indexed sum of the column's entries.
  • The maximum over axis 0 is the fold of `max` over the column's entries from the accumulator's value.
  • A `[1, 1]` value broadcast down a column `[a, 1]`, a column `[a, 1]` broadcast across `[a, b]`, and a `[1, 1]`
    value broadcast along a row `[1, b]`, each read at an entry.
  • The f32 word of `-∞` denotes `⊥`.
-/
import Idealize.ShloMosaic.Lib.Pipeline.Value
import Idealize.ShloMosaic.Lib.ValueIdx
import Idealize.ShloMosaic.PureOps.Ideal.Laws

namespace Cert.ColReduce

open Idealize.ShloMosaic Idealize.ShloMosaic.ValueIdx
open scoped BigOperators

/-- The sum over the rows, at a column. -/
theorem multiReduction_add_cols {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => ?_
  exact congrArg src (funext fun c => Fin.ext (by match c with | ⟨0, _⟩ => rfl | ⟨1, _⟩ => rfl))

/-- The maximum over the rows, at a column: the fold of `max` from the accumulator's value. -/
theorem multiReduction_max_cols {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) (fun k => src (ix2 k q)) := by
  refine (Ideal.multiReduction_maximumf_single src acc h hφ hacc (ix1 q)).trans ?_
  refine congrArg (Finset.fold max _ · _) (funext fun k => ?_)
  exact congrArg src (funext fun c => Fin.ext (by match c with | ⟨0, _⟩ => rfl | ⟨1, _⟩ => rfl))

variable {α : Type}

/-- A `[1, 1]` value broadcast down a column. -/
theorem broadcastTo_11_a1 {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- A `[1, 1]` value broadcast along a row. -/
theorem broadcastTo_11_1b {b : ℕ} (v : (⟨2, ![1, 1]⟩ : Shape).Idx → α) (h : (⟨2, ![1, 1]⟩ : Shape).Broadcasts ⟨2, ![1, b]⟩)
    (u : Fin 1) (q : Fin b) : broadcastTo ⟨2, ![1, b]⟩ v h (ix2 u q) = v (ix2 (0 : Fin 1) (0 : Fin 1)) := by
  refine broadcastTo_apply v h (ix2 u q) (ix2 (0 : Fin 1) (0 : Fin 1)) fun ax => ?_
  match ax with
  | ⟨0, _⟩ => rfl
  | ⟨1, _⟩ => rfl

/-- A column broadcast across the columns of a matrix. -/
theorem broadcastTo_a1_ab {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A one-entry vector as a `[1, 1]` matrix. -/
theorem shapeCast_1_11 (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show 0 = u.val * 1 + v.val
    omega)

/-- The f32 word `0xFF800000` denotes `-∞`. -/
theorem ofBits_neg_inf_f32 : Ideal.ofBits .f32 0xFF800000#32 = ⊥ := by
  simp [Ideal.ofBits, Ideal.ieee]

end Cert.ColReduce
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.BlockValue.lean ====
/-
  What one grid point of the kernel stores, as a function of the five blocks it loads.

  The body loads 512 rows of W, Q, Θ, the 512 steps s of those rows and the whole of σ, and stores one number,
  broadcast over an [1, 8, 128] tile: the block's contribution to the loss.  Read at any index of the tile the stored
  value is `rowsLoss` of the blocks' entries — the squashing is pointwise, the two matrix products into a zero
  accumulator are sums over the contracted coordinate, each lane sum kept as a column is a sum over the row, and each
  sum down a column is a sum over the 512 rows.
-/
import proofs.«153995_j2276332667063_2_alg».proof.Proof.Gen.KernelIdeal.Frame
import proofs.«153995_j2276332667063_2_alg».proof.Proof.RowLoss
import proofs.«153995_j2276332667063_2_alg».proof.Proof.LibKeepdims
import proofs.«153995_j2276332667063_2_alg».proof.Proof.LibColReduce
import proofs.«153995_j2276332667063_2_alg».proof.Proof.LibRowOps
import Idealize.ShloMosaic.Lib.Pipeline.Value
import Idealize.ShloMosaic.Lib.ValueIdx
import Idealize.ShloMosaic.PureOps.Ideal.Laws

noncomputable section

namespace Cert.KernelIdeal.Block

open Idealize.ShloMosaic Idealize.ShloMosaic.ValueIdx
open Cert.KernelIdeal Cert.KernelIdeal.Gen Cert.RoundLoss
open scoped BigOperators

/-! ## Layout operations of the body, read at an index -/

/-- A lane sum kept as a column, at row p: the sum of the row. -/
theorem rowSums_apply (src : FVec Ideal S512x1024 .f32) (acc : BitVec (FTy.bits .f32)) (h : S512x1024.Reduces [1] S512)
    (hφ : FKind.Formats .f32) (hacc : acc = FKind.add.neutral .f32 hφ) (hc : S512.ShapeCasts S512x1)
    (p : Fin 512) (u : Fin 1) :
    shapeCast S512x1 (multiReduction .add [1] S512 src acc h hφ hacc) hc (ix2 p u)
      = ∑ k : Fin 1024, src (ix2 p k) :=
  (Cert.Keepdims.shapeCast_a_a1_apply _ hc p u).trans
    (Cert.Keepdims.multiReduction_add_rows (a := 512) (b := 1024) src acc h hφ hacc p)

/-- A column summed down its 512 rows and kept as a [1, 1] value. -/
theorem colTotal_apply (col : FVec Ideal S512x1 .f32) (acc : BitVec (FTy.bits .f32)) (h : S512x1.Reduces [0] S1)
    (hφ : FKind.Formats .f32) (hacc : acc = FKind.add.neutral .f32 hφ) (hc : S1.ShapeCasts S1x1) (u v : Fin 1) :
    shapeCast S1x1 (multiReduction .add [0] S1 col acc h hφ hacc) hc (ix2 u v)
      = ∑ p : Fin 512, col (ix2 p (0 : Fin 1)) :=
  (Cert.ColReduce.shapeCast_1_11 _ hc u v).trans
    (Cert.ColReduce.multiReduction_add_cols (a := 512) (b := 1) col acc h hφ hacc (0 : Fin 1))

/-- The step column broadcast over the lanes. -/
theorem stepCol_apply (x3 : FVec Ideal S512x1 .f32) (h : S512x1.Broadcasts S512x1024) (p : Fin 512) (k : Fin 1024) :
    broadcastTo S512x1024 x3 h (ix2 p k) = x3 (ix2 p (0 : Fin 1)) :=
  Cert.Keepdims.broadcastTo_a1_ab_apply (a := 512) (b := 1024) x3 h p k

/-- A [1, 1] value as a [1, 1, 1] value. -/
theorem cast_11_111_apply {α : Type} (v : S1x1.Idx → α) (h : S1x1.ShapeCasts S1x1x1) (u a b : Fin 1) :
    shapeCast S1x1x1 v h (ix3 u a b) = v (ix2 (0 : Fin 1) (0 : Fin 1)) :=
  shapeCast_apply v h _ _ (by
    have hu : u.val = 0 := by omega
    have ha : a.val = 0 := by omega
    have hb : b.val = 0 := by omega
    rw [Shape.rowMajor_val_two, Shape.rowMajor_val_three]
    show 0 * 1 + 0 = (u.val * 1 + a.val) * 1 + b.val
    omega)

/-- A [1, 1, 1] value broadcast over the [1, 8, 128] tile. -/
theorem tile_apply {α : Type} (v : S1x1x1.Idx → α) (h : S1x1x1.Broadcasts S1x8x128) (u : Fin 1) (a : Fin 8) (b : Fin 128) :
    broadcastTo S1x8x128 v h (ix3 u a b) = v (ix3 (0 : Fin 1) (0 : Fin 1) (0 : Fin 1)) := by
  refine broadcastTo_apply v h (ix3 u a b) (ix3 (0 : Fin 1) (0 : Fin 1) (0 : Fin 1)) fun ax => ?_
  match ax with
  | ⟨0, _⟩ => rfl
  | ⟨1, _⟩ => rfl
  | ⟨2, _⟩ => rfl

/-! ## The matrix product of the body -/

theorem lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

theorem rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The product of a block of rows with σ into a zero accumulator, at an entry: the sum over the contracted
    coordinate (the change of format of the left operand is the identity on the extended reals). -/
theorem prod_apply (u : FVec Ideal S512x1024 .f32) (sg : FVec Ideal S1024x1024 .bf16)
    (hb : FTy.bits .bf16 < FTy.bits .f32) (p : Fin 512) (k : Fin 1024) :
    matmul dot_S512x1024_S1024x1024_S512x1024_1_0_0_1_n_n none (truncf .bf16 u hb) sg
        (constant S512x1024 .f32 0x00000000#32) (ix2 p k) = ∑ j : Fin 1024, u (ix2 p j) * sg (ix2 j k) :=
  Cert.RowOps.matmul_zero_entry (a := 512) (K := 1024) (b := 1024) dot_S512x1024_S1024x1024_S512x1024_1_0_0_1_n_n rfl rfl
    lhs0 (fun i q => dot_S512x1024_S1024x1024_S512x1024_1_0_0_1_n_n.lhsIdx_val_of_single rfl i q)
    (fun i q => dot_S512x1024_S1024x1024_S512x1024_1_0_0_1_n_n.rhsIdx_val_of_single rfl i q) rhs1
    none (truncf .bf16 u hb) sg p k

/-! ## The payloads -/

/-- The squashed rounding variable, entry by entry. -/
theorem squashed_apply (x4 : Vec Ideal S512x1024 .f32) (p : Fin 512) (k : Fin 1024) :
    k0_pay3 (F := Ideal) x4 (ix2 p k) = squash (x4 (ix2 p k)) := rfl

/-- W − s·Q, entry by entry. -/
theorem gridResid_apply (x0 x2 : Vec Ideal S512x1024 .f32) (x3 : Vec Ideal S512x1 .f32) (p : Fin 512) (k : Fin 1024) :
    k0_pay4 (F := Ideal) x0 x2 x3 (ix2 p k) = x0 (ix2 p k) - x3 (ix2 p (0 : Fin 1)) * x2 (ix2 p k) :=
  congrArg (fun z => x0 (ix2 p k) - z * x2 (ix2 p k)) (stepCol_apply x3 _ p k)

/-- The residual W − s·Q − s·t, entry by entry. -/
theorem resid_apply (x0 x4 x2 : Vec Ideal S512x1024 .f32) (x3 : Vec Ideal S512x1 .f32) (p : Fin 512) (k : Fin 1024) :
    k0_pay5 (F := Ideal) x0 x4 x2 x3 (ix2 p k)
      = resid (fun k => x0 (ix2 p k)) (fun k => x2 (ix2 p k)) (fun k => squash (x4 (ix2 p k))) (x3 (ix2 p (0 : Fin 1))) k := by
  show k0_pay4 (F := Ideal) x0 x2 x3 (ix2 p k)
      - broadcastTo S512x1024 x3 broadcasts_S512x1_S512x1024 (ix2 p k) * k0_pay3 (F := Ideal) x4 (ix2 p k) = _
  rw [gridResid_apply, stepCol_apply, squashed_apply]
  rfl

/-- The binary term summed over the block. -/
theorem binary_total (x4 : Vec Ideal S512x1024 .f32) (u v : Fin 1) :
    k0_pay6 (F := Ideal) x4 (ix2 u v) = ∑ p : Fin 512, ∑ k : Fin 1024, binTerm (squash (x4 (ix2 p k))) := by
  unfold k0_pay6
  refine (colTotal_apply _ _ _ _ _ _ u v).trans (Finset.sum_congr rfl fun p _ => ?_)
  refine (rowSums_apply _ _ _ _ _ _ p 0).trans (Finset.sum_congr rfl fun k _ => ?_)
  rfl

/-- W·σ, entry by entry. -/
theorem wsigma_apply (x1 : Vec Ideal S1024x1024 .bf16) (x0 : Vec Ideal S512x1024 .f32) (p : Fin 512) (k : Fin 1024) :
    k0_pay7 (F := Ideal) x1 x0 (ix2 p k) = ∑ j : Fin 1024, x0 (ix2 p j) * x1 (ix2 j k) := by
  unfold k0_pay7 k0_pay2
  rw [shapeCast_self]
  exact prod_apply x0 x1 _ p k

/-- (W·σ)·(W − s·Q), entry by entry. -/
theorem wsigma_grid_apply (x1 : Vec Ideal S1024x1024 .bf16) (x0 x2 : Vec Ideal S512x1024 .f32) (x3 : Vec Ideal S512x1 .f32)
    (p : Fin 512) (k : Fin 1024) :
    k0_pay8 (F := Ideal) x1 x0 x2 x3 (ix2 p k)
      = (∑ j : Fin 1024, x0 (ix2 p j) * x1 (ix2 j k)) * (x0 (ix2 p k) - x3 (ix2 p (0 : Fin 1)) * x2 (ix2 p k)) := by
  show k0_pay7 (F := Ideal) x1 x0 (ix2 p k) * k0_pay4 (F := Ideal) x0 x2 x3 (ix2 p k) = _
  rw [wsigma_apply, gridResid_apply]

/-- The stored tile, at any of its indices, from the values the last part of the body starts from: the three
    block sums, scaled and added. -/
theorem stored_apply (v1 : FVec Ideal S1024x1024 .bf16) (v14 : FVec Ideal S512x1024 .f32) (v16 : Vec Ideal S512x1 .f32)
    (v22 : FVec Ideal S512x1024 .f32) (v33 : FVec Ideal S1x1 .f32) (v35 v36 : FVec Ideal S512x1024 .f32)
    (u : Fin 1) (a : Fin 8) (b : Fin 128) :
    k0_pay1 (F := Ideal) v1 v14 v16 v22 v33 v35 v36 (ix3 u a b)
      = ((∑ p : Fin 512, ∑ k : Fin 1024, (∑ j : Fin 1024, v22 (ix2 p j) * v1 (ix2 j k)) * v22 (ix2 p k))
          + Ideal.ofBits .f32 0x3951B717#32 * v33 (ix2 (0 : Fin 1) (0 : Fin 1)))
        + Ideal.ofBits .f32 0x3D4CCCCD#32 * (∑ p : Fin 512,
            (Ideal.ofBits .f32 0x40000000#32 * ((∑ k : Fin 1024, v36 (ix2 p k))
                - v16 (ix2 p (0 : Fin 1)) * (∑ k : Fin 1024, v35 (ix2 p k) * v14 (ix2 p k))))
            * (Ideal.ofBits .f32 0x40000000#32 * ((∑ k : Fin 1024, v36 (ix2 p k))
                - v16 (ix2 p (0 : Fin 1)) * (∑ k : Fin 1024, v35 (ix2 p k) * v14 (ix2 p k))))) := by
  unfold k0_pay1
  simp only [tile_apply, shapeCast_self, cast_11_111_apply, addf_apply, mulf_apply, broadcast_apply]
  refine congrArg₂ (· + ·) (congrArg₂ (· + ·) ?_ rfl) (congrArg (_ * ·) ?_)
  · -- the activation term: down the column of the row sums of (d·σ)·d
    refine (colTotal_apply _ _ _ _ _ _ 0 0).trans (Finset.sum_congr rfl fun p _ => ?_)
    refine (rowSums_apply _ _ _ _ _ _ p 0).trans (Finset.sum_congr rfl fun k _ => ?_)
    exact congrArg (· * v22 (ix2 p k)) (prod_apply v22 v1 _ p k)
  · -- the geometry term: down the column of the squares of 2·(a − s·b)
    refine (colTotal_apply _ _ _ _ _ _ 0 0).trans (Finset.sum_congr rfl fun p _ => ?_)
    have twice : ∀ (R1 R2 : FVec Ideal S512x1 .f32) (s1 s2 : EReal), R1 (ix2 p (0 : Fin 1)) = s1 →
        R2 (ix2 p (0 : Fin 1)) = s2 →
        mulf (broadcast S512x1 (FloatOps.ofBits (F := Ideal) .f32 0x40000000#32)) (subf R1 (mulf v16 R2)) (ix2 p (0 : Fin 1))
          = Ideal.ofBits .f32 0x40000000#32 * (s1 - v16 (ix2 p (0 : Fin 1)) * s2) := by
      intro R1 R2 s1 s2 h1 h2; subst h1 h2; rfl
    refine (mulf_apply _ _ _).trans ?_
    exact congrArg₂ (· * ·)
      (twice _ _ _ _ (rowSums_apply _ _ _ _ _ _ p 0) (rowSums_apply _ _ _ _ _ _ p 0))
      (twice _ _ _ _ (rowSums_apply _ _ _ _ _ _ p 0) (rowSums_apply _ _ _ _ _ _ p 0))

theorem hz2 : (![0, 0] : Fin 2 → Nat) = fun _ => 0 := funext fun a => by fin_cases a <;> rfl
theorem hz3 : (![0, 0, 0] : Fin 3 → Nat) = fun _ => 0 := funext fun a => by fin_cases a <;> rfl

/-- WHAT A POINT STORES, at any index of its tile: the contribution of the rows it loaded. -/
theorem stored_eq (x0 : Vec Ideal S512x1024 .f32) (x1 : Vec Ideal S1024x1024 .bf16) (x2 : Vec Ideal S512x1024 .f32)
    (x3 : Vec Ideal S512x1 .f32) (x4 : Vec Ideal S512x1024 .f32) (y : S1x8x128.Idx) :
    out0_5 (F := Ideal) x0 x1 x2 x3 x4 y
      = rowsLoss (fun p k => x0 (ix2 p k)) (fun p k => x2 (ix2 p k)) (fun p k => x4 (ix2 p k))
          (fun p => x3 (ix2 p (0 : Fin 1))) (fun j k => x1 (ix2 j k)) := by
  obtain ⟨u, a, b, rfl⟩ : ∃ (u : Fin 1) (a : Fin 8) (b : Fin 128), y = ix3 u a b := ⟨y 0, y 1, y 2, eq_ix3 y⟩
  unfold out0_5
  rw [View.canon_unit_zero hz3]
  simp only [View.ld_unit_zero (S := S1024x1024) hz2, View.ld_unit_zero (S := S512x1024) hz2,
    View.ld_unit_zero (S := S512x1) hz2]
  rw [stored_apply]
  simp only [rowsLoss, geom, form, k0_pay2, shapeCast_self, resid_apply, binary_total, wsigma_apply, wsigma_grid_apply,
    squashed_apply]

/-- The same, against any row functions the blocks' entries are known to be. -/
theorem stored_of (x0 : Vec Ideal S512x1024 .f32) (x1 : Vec Ideal S1024x1024 .bf16) (x2 : Vec Ideal S512x1024 .f32)
    (x3 : Vec Ideal S512x1 .f32) (x4 : Vec Ideal S512x1024 .f32) (y : S1x8x128.Idx)
    (W Q Θ : Fin 512 → Fin 1024 → EReal) (s : Fin 512 → EReal) (σ : Fin 1024 → Fin 1024 → EReal)
    (hW : ∀ p k, x0 (ix2 p k) = W p k) (hQ : ∀ p k, x2 (ix2 p k) = Q p k) (hΘ : ∀ p k, x4 (ix2 p k) = Θ p k)
    (hs : ∀ p, x3 (ix2 p (0 : Fin 1)) = s p) (hσ : ∀ j k, x1 (ix2 j k) = σ j k) :
    out0_5 (F := Ideal) x0 x1 x2 x3 x4 y = rowsLoss W Q Θ s σ := by
  rw [stored_eq, show (fun p k => x0 (ix2 p k)) = W from funext fun p => funext fun k => hW p k,
    show (fun p k => x2 (ix2 p k)) = Q from funext fun p => funext fun k => hQ p k,
    show (fun p k => x4 (ix2 p k)) = Θ from funext fun p => funext fun k => hΘ p k,
    show (fun p => x3 (ix2 p (0 : Fin 1))) = s from funext fun p => hs p,
    show (fun j k => x1 (ix2 j k)) = σ from funext fun j => funext fun k => hσ j k]

end Cert.KernelIdeal.Block

end
-- ==== Proof.KernelArray.lean ====
/-
  The kernel's output array after the run, and the program's result.

  Point t of the grid loads rows 512·t … 512·t + 511 of W, Q, Θ and s and the whole of σ (as the host's change of
  format left it), and writes back the [1, 8, 128] tile t of the output holding one number, the contribution of those
  rows.  The 64 tiles cover the [64, 8, 128] output, so after the run the output at (i, a, b) is the contribution of
  block i.  The host then takes entry (i, 0, 0) of every tile, adds the 64 numbers from a zero start, and presents
  the sum as a one-entry vector: that sum is the loss taken block by block.
-/
import proofs.«153995_j2276332667063_2_alg».proof.Proof.Gen.KernelIdeal.Frame
import proofs.«153995_j2276332667063_2_alg».proof.Proof.BlockValue
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal.Laws

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.RoundLoss
open scoped BigOperators

variable (m : (ℓ : Loc nD τ sig) → Buf (Elt Ideal) ℓ) (ρ : Dev nD → PrngReg)

/-! ## The output array as one function of the argument arrays -/

/-- The contribution of block i, from the whole arrays. -/
def blockLossAt (X0 : S32768x1024.Idx → EReal) (X1 : S1024x1024.Idx → EReal) (X2 : S32768x1024.Idx → EReal)
    (X3 : S32768x1.Idx → EReal) (X4 : S32768x1024.Idx → EReal) (i : Fin 64) : EReal :=
  rowsLoss (fun p k => X0 (ix2 (blockRow i p) k)) (fun p k => X2 (ix2 (blockRow i p) k))
    (fun p k => X4 (ix2 (blockRow i p) k)) (fun p => X3 (ix2 (blockRow i p) (0 : Fin 1))) (fun j k => X1 (ix2 j k))

/-- The output: at (i, a, b) the contribution of block i. -/
def tiles (X0 : S32768x1024.Idx → EReal) (X1 : S1024x1024.Idx → EReal) (X2 : S32768x1024.Idx → EReal)
    (X3 : S32768x1.Idx → EReal) (X4 : S32768x1024.Idx → EReal) : S64x8x128.Idx → EReal :=
  fun i => blockLossAt X0 X1 X2 X3 X4 ⟨(i 0).val, (i 0).isLt⟩

/-! ## The index maps, decided over the grid -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## Each input block as rows of its array -/

theorem rowsW (c : Dev nD) (t : Fin cfg0.N) (p : Fin 512) (k : Fin 1024) :
    (iblk m c 0 t : Vec Ideal S512x1024 .f32) (ix2 p k)
      = (V m c main_arg0 : S32768x1024.Idx → Elt Ideal .f32) (ix2 (blockRow (t.cast N_0) p) k) := by
  obtain ⟨e0, e1, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

theorem sigmaAll (c : Dev nD) (t : Fin cfg0.N) (j k : Fin 1024) :
    (iblk m c 1 t : Vec Ideal S1024x1024 .bf16) (ix2 j k)
      = (V m c main_v0 : S1024x1024.Idx → Elt Ideal .bf16) (ix2 j k) := by
  obtain ⟨-, -, e0, e1, -⟩ := idx_facts t
  show V m c main_v0 (((cfg0.win 1).blk t).view.emb (ix2 j k)) = _
  refine congrArg (V m c main_v0) (funext fun a => Fin.ext ?_)
  match a with
  | ⟨0, _⟩ => show win0_1.index t (0 : Fin 2) * 1024 + 1 * j.val = j.val; rw [e0]; omega
  | ⟨1, _⟩ => show win0_1.index t (1 : Fin 2) * 1024 + 1 * k.val = k.val; rw [e1]; omega

theorem rowsQ (c : Dev nD) (t : Fin cfg0.N) (p : Fin 512) (k : Fin 1024) :
    (iblk m c 2 t : Vec Ideal S512x1024 .f32) (ix2 p k)
      = (V m c main_arg2 : S32768x1024.Idx → Elt Ideal .f32) (ix2 (blockRow (t.cast N_0) p) k) := by
  obtain ⟨-, -, -, -, e0, e1, -⟩ := idx_facts t
  show V m c main_arg2 (((cfg0.win 2).blk t).view.emb (ix2 p k)) = _
  refine congrArg (V m c main_arg2) (funext fun a => Fin.ext ?_)
  match a with
  | ⟨0, _⟩ => show win0_2.index t (0 : Fin 2) * 512 + 1 * p.val = 512 * t.val + p.val; rw [e0]; omega
  | ⟨1, _⟩ => show win0_2.index t (1 : Fin 2) * 1024 + 1 * k.val = k.val; rw [e1]; omega

theorem steps (c : Dev nD) (t : Fin cfg0.N) (p : Fin 512) :
    (iblk m c 3 t : Vec Ideal S512x1 .f32) (ix2 p (0 : Fin 1))
      = (V m c main_arg3 : S32768x1.Idx → Elt Ideal .f32) (ix2 (blockRow (t.cast N_0) p) (0 : Fin 1)) := by
  obtain ⟨-, -, -, -, -, -, e0, e1, -⟩ := idx_facts t
  show V m c main_arg3 (((cfg0.win 3).blk t).view.emb (ix2 p (0 : Fin 1))) = _
  refine congrArg (V m c main_arg3) (funext fun a => Fin.ext ?_)
  match a with
  | ⟨0, _⟩ => show win0_3.index t (0 : Fin 2) * 512 + 1 * p.val = 512 * t.val + p.val; rw [e0]; omega
  | ⟨1, _⟩ => show win0_3.index t (1 : Fin 2) * 1 + 1 * 0 = 0; rw [e1]

theorem rowsΘ (c : Dev nD) (t : Fin cfg0.N) (p : Fin 512) (k : Fin 1024) :
    (iblk m c 4 t : Vec Ideal S512x1024 .f32) (ix2 p k)
      = (V m c main_arg4 : S32768x1024.Idx → Elt Ideal .f32) (ix2 (blockRow (t.cast N_0) p) k) := by
  obtain ⟨-, -, -, -, -, -, -, -, e0, e1, -⟩ := idx_facts t
  show V m c main_arg4 (((cfg0.win 4).blk t).view.emb (ix2 p k)) = _
  refine congrArg (V m c main_arg4) (funext fun a => Fin.ext ?_)
  match a with
  | ⟨0, _⟩ => show win0_4.index t (0 : Fin 2) * 512 + 1 * p.val = 512 * t.val + p.val; rw [e0]; omega
  | ⟨1, _⟩ => show win0_4.index t (1 : Fin 2) * 1024 + 1 * k.val = k.val; rw [e1]; omega

/-! ## What a point writes back, the cover, the array -/

/-- WHAT POINT t WRITES BACK is tile t of `tiles` of the arrays as the region finds them. -/
theorem written_eq (c : Dev nD) (t : Fin cfg0.N) :
    (dats m 0 c).flushed 5 t = ((cfg0.win 5).blk t).view.read (Elt Ideal)
      (tiles (V m c main_arg0) (V m c main_v0) (V m c main_arg2) (V m c main_arg3) (V m c main_arg4)) := by
  obtain ⟨-, -, -, -, -, -, -, -, -, -, e0, -⟩ := idx_facts t
  show (cfg0.win 5).cut (grid0.coords t) ((dats m 0 c).after 5 t) = _
  rw [after0_5]
  funext y
  refine (Block.stored_of _ _ _ _ _ y _ _ _ _ _ (rowsW m c t) (rowsQ m c t) (rowsΘ m c t) (steps m c t)
    (sigmaAll m c t)).trans ?_
  show blockLossAt _ _ _ _ _ (t.cast N_0) = blockLossAt _ _ _ _ _ ⟨(((cfg0.win 5).blk t).view.emb y 0).val, _⟩
  refine congrArg (blockLossAt _ _ _ _ _) (Fin.ext ?_)
  show t.val = win0_5.index t (0 : Fin 3) * 1 + 1 * (y 0).val
  have hy : (y 0).val < 1 := (y 0).isLt
  rw [e0]; omega

/-- An index of the output is in point t's tile iff each coordinate is in the tile's range on its axis. -/
theorem mem_tile (t : Fin cfg0.N) (i : S64x8x128.Idx) :
    i ∈ ((cfg0.win 5).blk t).view.set ↔ ∀ a : Fin 3, win0_5.index t a * S1x8x128.size a ≤ (i a).val
      ∧ (i a).val < win0_5.index t a * S1x8x128.size a + S1x8x128.size a := by
  show i ∈ ((View.whole main_v1).slice (win0_5.rect t)).set ↔ _
  rw [View.set_slice_whole, Rect.mem_set_unit]
  exact Iff.rfl

/-- Every index of the output is in the tile of the point its first coordinate names. -/
theorem covered (i : S64x8x128.Idx) :
    ∃ t : Fin cfg0.N, (cfg0.win 5).flush t = true ∧ i ∈ ((cfg0.win 5).blk t).view.set := by
  have hN : cfg0.N = 64 := N_0
  have h0 : (i 0).val < 64 := (i 0).isLt
  have h1 : (i 1).val < 8 := (i 1).isLt
  have h2 : (i 2).val < 128 := (i 2).isLt
  obtain ⟨t, ht⟩ : ∃ t : Fin cfg0.N, t.val = (i 0).val := ⟨⟨(i 0).val, by rw [hN]; exact h0⟩, rfl⟩
  obtain ⟨-, -, -, -, -, -, -, -, -, -, e0, e1, e2⟩ := idx_facts t
  refine ⟨t, flush0_5 t, (mem_tile t i).mpr fun a => ?_⟩
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 8 ≤ (i 1).val ∧ (i 1).val < win0_5.index t (1 : Fin 3) * 8 + 8; rw [e1]; omega
  | ⟨2, _⟩ => show win0_5.index t (2 : Fin 3) * 128 ≤ (i 2).val ∧ (i 2).val < win0_5.index t (2 : Fin 3) * 128 + 128; rw [e2]; omega

/-- THE OUTPUT ARRAY after the run. -/
theorem array_eq (c : Dev nD) : (dats m 0 c).arrAt 5 cfg0.N
    = tiles (V m c main_arg0) (V m c main_v0) (V m c main_arg2) (V m c main_arg3) (V m c main_arg4) :=
  (dats m 0 c).arrAt_eq_of_cover 5 _ (fun t _ => written_eq m c t) covered

end Cert.KernelIdeal.Whole

end
-- ==== Proof.LibIdxSum1.lean ====
/-
  A sum over the index set of a rank-1 shape [n], in any commutative monoid, is the sum over the one coordinate at
  ValueIdx.ix1: the rank-1 companion of the library's sum_idx2.  General in the extent.
-/
import Idealize.ShloMosaic.Lib.ValueIdx

namespace Cert.IdxSum1

open Idealize.ShloMosaic Idealize.ShloMosaic.ValueIdx
open scoped BigOperators

/-- The index set of a rank-1 shape is its coordinate's range. -/
def idxEquiv1 {n : Nat} : (⟨1, ![n]⟩ : Shape).Idx ≃ Fin n where
  toFun i := i 0
  invFun a := ix1 a
  left_inv i := (eq_ix1 i).symm
  right_inv _ := rfl

/-- A sum over the indices of a vector is the sum over its coordinate. -/
theorem sum_idx1 {M : Type} [AddCommMonoid M] {n : Nat} (f : (⟨1, ![n]⟩ : Shape).Idx → M) :
    ∑ i, f i = ∑ a : Fin n, f (ix1 a) :=
  (Equiv.sum_comp (idxEquiv1 (n := n)).symm f).symm

end Cert.IdxSum1
-- ==== Proof.HostTail.lean ====
/-
  The host lines after the kernel, as one function of the kernel's output array.

  They take entry (t, 0, 0) of each of the 64 tiles (a slice to [64, 1, 1], re-laid as a vector of 64) and add the 64
  numbers up from a zero start.  At the one index of the scalar result that is the zero word plus the sum over t of
  the output at (t, 0, 0).
-/
import proofs.«153995_j2276332667063_2_alg».proof.Proof.Gen.KernelIdeal
import proofs.«153995_j2276332667063_2_alg».proof.Proof.LibIdxSum1
import Idealize.ShloMosaic.Lib.Pipeline.Value
import Idealize.ShloMosaic.Lib.ValueIdx
import Idealize.ShloMosaic.PureOps.Ideal.Laws

noncomputable section

namespace Cert.KernelIdeal.Tail

open Idealize.ShloMosaic Idealize.ShloMosaic.ValueIdx
open Cert.KernelIdeal Cert.KernelIdeal.Gen Cert.IdxSum1
open scoped BigOperators

/-- The scalar the host lines compute from the output array. -/
def total (G : S64x8x128.Idx → EReal) : S_.Idx → EReal :=
  Host.reduceAdd (F := Ideal)
    (shapeCast S64 (extractStridedSlice S64x1x1 ![0, 0, 0] G slices_S64x8x128_S64x1x1_0_0_0) shapeCasts_S64x1x1_S64)
    (constant (F := Ideal) S_ .f32 0x00000000#32) reducesTo_S64_S_d0 h_S_

/-- The vector of the tiles' first entries, at t. -/
theorem firsts_apply (G : S64x8x128.Idx → EReal) (t : Fin 64) :
    shapeCast S64 (extractStridedSlice S64x1x1 ![0, 0, 0] G slices_S64x8x128_S64x1x1_0_0_0) shapeCasts_S64x1x1_S64 (ix1 t)
      = G (ix3 t (0 : Fin 8) (0 : Fin 128)) := by
  refine (shapeCast_apply _ shapeCasts_S64x1x1_S64 (ix1 t) (ix3 t (0 : Fin 1) (0 : Fin 1)) ?_).trans ?_
  · rw [Shape.rowMajor_val_three, Shape.rowMajor_val_one]
    show (t.val * 1 + 0) * 1 + 0 = t.val
    omega
  · refine extractStridedSlice_apply _ G slices_S64x8x128_S64x1x1_0_0_0 (ix3 t (0 : Fin 1) (0 : Fin 1))
      (ix3 t (0 : Fin 8) (0 : Fin 128)) fun a => ?_
    match a with
    | ⟨0, _⟩ => show t.val = 0 + t.val; omega
    | ⟨1, _⟩ => rfl
    | ⟨2, _⟩ => rfl

/-- The scalar is the zero word plus the sum of the tiles' first entries. -/
theorem total_apply (G : S64x8x128.Idx → EReal) (i : S_.Idx) :
    total G i = Ideal.ofBits .f32 0x00000000#32 + ∑ t : Fin 64, G (ix3 t (0 : Fin 8) (0 : Fin 128)) := by
  unfold total
  simp only [Host.reduceAdd, Ideal.hostReduceAdd_def]
  rw [Ideal.hostReduceAdd_total reducesTo_S64_S_d0 (fun b => b.elim0) _ _ i, sum_idx1]
  exact congrArg₂ (· + ·) rfl (Finset.sum_congr rfl fun t _ => firsts_apply G t)

end Cert.KernelIdeal.Tail

end
-- ==== Proof.KernelRun.lean ====
/-
  The kernel program's run, read: the result buffer ends at the host lines applied to the output array, which is
  the tiles of the launched arguments; the arguments end unchanged.
-/
import proofs.«153995_j2276332667063_2_alg».proof.Proof.KernelArray
import proofs.«153995_j2276332667063_2_alg».proof.Proof.HostTail
import Idealize.ShloMosaic.Lib.StableHlo.Run
import Idealize.ShloMosaic.Lib.Tactic

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.RoundLoss

variable (m : (ℓ : Loc nD τ sig) → Buf (Elt Ideal) ℓ) (ρ : Dev nD → PrngReg)

/-- What the region finds at the host's re-formatted σ is the launched σ: on the extended reals a change of float
    format is the identity. -/
theorem sigma_found (c : Dev nD) :
    @Eq (S1024x1024.Idx → EReal) (V m c main_v0) (m ((c : Thread nD τ).loc main_arg1)) := by
  show StableHlo.after hostOps0 (fun b => m (c, b)) (Proc.devRef .tc main_v0) = _
  after_results
  rfl

/-- The result, as a function of the launched arguments. -/
def result (c : Dev nD) : S1.Idx → EReal :=
  shapeCast S1 (Tail.total (tiles (m ((c : Thread nD τ).loc main_arg0)) (m ((c : Thread nD τ).loc main_arg1))
    (m ((c : Thread nD τ).loc main_arg2)) (m ((c : Thread nD τ).loc main_arg3)) (m ((c : Thread nD τ).loc main_arg4))))
    shapeCasts_S_S1

/-- The host lines after the region leave `result` in the result buffer. -/
theorem result_eq (c : Dev nD) :
    @Eq (S1.Idx → EReal) (Pipeline.afterTail₀ cfgs (dats m) 0 (V0 m) [hostOps1] c main_v5) (result m c) := by
  have hw : Pipeline.withArrays (cfgs 0).spec c (V0 m c) (fun w => (dats m 0 c).arrAt w (cfgs 0).N)
      (Proc.devRef .tc main_v1)
        = tiles (V m c main_arg0) (V m c main_v0) (V m c main_arg2) (V m c main_arg3) (V m c main_arg4) :=
    (Pipeline.withArrays_arr spec0 launch0.win.arr_inj c _ _ 5).trans (array_eq m c)
  rw [V_main_arg0 m c, V_main_arg2 m c, V_main_arg3 m c, V_main_arg4 m c, sigma_found m c] at hw
  unfold Pipeline.afterTail₀
  show StableHlo.after hostOps1 _ (Proc.devRef .tc main_v5) = _
  after_results
  rw [hw]
  rfl

/-- THE RUN: every weakly fair execution terminates with the result buffer at `result` and the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Whole

end
-- ==== Proof.RefValue.lean ====
/-
  The reference's result, read one operation at a time, is the loss taken over all rows at once.

  Entry by entry: the clipped, shifted, scaled tanh is the squashed rounding variable (its 0.5 · 1.2 being the one
  literal 0.6); W − s·(Q + t) is the residual in its one-subtraction spelling; a product with σ is the sum over the
  contracted coordinate; a sum over an axis from a zero start is the plain sum; a sum over the whole matrix is the
  sum over the rows of the sums over each row.
-/
import proofs.«153995_j2276332667063_2_alg».proof.Proof.Gen.ReferenceIdeal.Read
import proofs.«153995_j2276332667063_2_alg».proof.Proof.RowLoss
import proofs.«153995_j2276332667063_2_alg».proof.Proof.LibIdxSum1
import Idealize.ShloMosaic.Lib.ValueIdx
import Idealize.ShloMosaic.PureOps.Ideal.Laws

noncomputable section

namespace Cert.ReferenceIdeal.Whole

open Idealize.ShloMosaic Idealize.ShloMosaic.ValueIdx
open Cert.ReferenceIdeal Cert.ReferenceIdeal.Read Cert.RoundLoss Cert.IdxSum1
open scoped BigOperators

abbrev Mat := (⟨S32768x1024, .f32⟩ : BufTy).Contents (Elt Ideal)
abbrev Sq := (⟨S1024x1024, .f32⟩ : BufTy).Contents (Elt Ideal)
abbrev Col := (⟨S32768x1, .f32⟩ : BufTy).Contents (Elt Ideal)

/-- The clipped value is the squashed rounding variable, at every index. -/
theorem squashed_entry (x4 : Mat) (i : S32768x1024.Idx) : val_main_v12 (F := Ideal) x4 i = squash (x4 i) := by
  simp only [val_main_v12_apply, val_main_call0_v4_apply, val_main_call0_v3_apply, val_main_cst_4_apply,
    val_main_call0_v2_apply, val_main_call0_v1_apply, val_main_call0_v0_apply, val_main_cst_3_apply,
    val_main_v11_apply, val_main_v9_apply, val_main_v7_apply, val_main_v5_apply, val_main_v3_apply,
    val_main_v4_apply, val_main_cst_apply, val_main_v6_apply, val_main_cst_0_apply, val_main_v8_apply,
    val_main_cst_1_apply, val_main_v10_apply, val_main_cst_2_apply]
  exact squash_split (x4 i)

theorem step_idx (r : Fin 32768) (k : Fin 1024) : idx_main_v14 (ix2 r k) = ix2 r (0 : Fin 1) :=
  funext fun a => Fin.ext (by match a with | ⟨0, _⟩ => rfl | ⟨1, _⟩ => rfl)

theorem step_idx0 (r : Fin 32768) (k : Fin 1024) : idx_main_v0 (ix2 r k) = ix2 r (0 : Fin 1) :=
  funext fun a => Fin.ext (by match a with | ⟨0, _⟩ => rfl | ⟨1, _⟩ => rfl)

/-- W − s·(Q + t), entry by entry. -/
theorem resid_entry (x0 x2 : Mat) (x3 : Col) (x4 : Mat) (r : Fin 32768) (k : Fin 1024) :
    val_main_v16 (F := Ideal) x0 x2 x3 x4 (ix2 r k)
      = residSum (fun k => x0 (ix2 r k)) (fun k => x2 (ix2 r k)) (fun k => squash (x4 (ix2 r k)))
          (x3 (ix2 r (0 : Fin 1))) k := by
  rw [val_main_v16_apply, val_main_v15_apply, val_main_v14_apply, val_main_v13_apply, squashed_entry, step_idx]
  rfl

theorem lidx17 (r : Fin 32768) (k j : Fin 1024) : lidx_main_v17 (ix2 r k) j = ix2 r j :=
  funext fun a => Fin.ext (by match a with | ⟨0, _⟩ => rfl | ⟨1, _⟩ => rfl)
theorem ridx17 (r : Fin 32768) (k j : Fin 1024) : ridx_main_v17 (ix2 r k) j = ix2 j k :=
  funext fun a => Fin.ext (by match a with | ⟨0, _⟩ => rfl | ⟨1, _⟩ => rfl)
theorem lidx32 (r : Fin 32768) (k j : Fin 1024) : lidx_main_v32 (ix2 r k) j = ix2 r j :=
  funext fun a => Fin.ext (by match a with | ⟨0, _⟩ => rfl | ⟨1, _⟩ => rfl)
theorem ridx32 (r : Fin 32768) (k j : Fin 1024) : ridx_main_v32 (ix2 r k) j = ix2 j k :=
  funext fun a => Fin.ext (by match a with | ⟨0, _⟩ => rfl | ⟨1, _⟩ => rfl)
theorem idx34 (r : Fin 32768) (k : Fin 1024) : idx_main_v34 (ix1 r) k = ix2 r k :=
  funext fun a => Fin.ext (by match a with | ⟨0, _⟩ => rfl | ⟨1, _⟩ => rfl)
theorem idx36 (r : Fin 32768) (k : Fin 1024) : idx_main_v36 (ix1 r) k = ix2 r k :=
  funext fun a => Fin.ext (by match a with | ⟨0, _⟩ => rfl | ⟨1, _⟩ => rfl)
theorem idx37 (r : Fin 32768) : idx_main_v37 (ix1 r) = ix2 r (0 : Fin 1) :=
  funext fun a => Fin.ext (by match a with | ⟨0, _⟩ => exact Nat.div_one _ | ⟨1, _⟩ => rfl)

/-- The activation term over all rows. -/
theorem activation_total (x0 : Mat) (x1 : Sq) (x2 : Mat) (x3 : Col) (x4 : Mat) (i : S_.Idx) :
    val_main_v19 (F := Ideal) x0 x1 x2 x3 x4 i
      = ∑ r : Fin 32768, form (residSum (fun k => x0 (ix2 r k)) (fun k => x2 (ix2 r k)) (fun k => squash (x4 (ix2 r k)))
            (x3 (ix2 r (0 : Fin 1)))) (fun j k => x1 (ix2 j k))
          (residSum (fun k => x0 (ix2 r k)) (fun k => x2 (ix2 r k)) (fun k => squash (x4 (ix2 r k)))
            (x3 (ix2 r (0 : Fin 1)))) := by
  rw [val_main_v19_apply, val_main_cst_5_apply, Ideal.ofBits_def, word_zero, zero_add, sum_idx2]
  unfold form
  refine Finset.sum_congr rfl fun r _ => Finset.sum_congr rfl fun k _ => ?_
  rw [val_main_v18_apply, val_main_v17_apply, resid_entry]
  refine congrArg (· * _) (Finset.sum_congr rfl fun j _ => ?_)
  rw [lidx17, ridx17, resid_entry]

/-- The binary term over all rows, the square as a power of the absolute value. -/
theorem binary_total (x4 : Mat) (i : S_.Idx) :
    val_main_v29 (F := Ideal) x4 i = ∑ r : Fin 32768, ∑ k : Fin 1024, binTermPow (squash (x4 (ix2 r k))) := by
  rw [val_main_v29_apply, val_main_cst_10_apply, Ideal.ofBits_def, word_zero, zero_add, sum_idx2]
  refine Finset.sum_congr rfl fun r _ => Finset.sum_congr rfl fun k _ => ?_
  simp only [val_main_v28_apply, val_main_v27_apply, val_main_cst_9_apply, val_main_v26_apply, val_main_v24_apply,
    val_main_v23_apply, val_main_v21_apply, val_main_v20_apply, val_main_cst_6_apply, val_main_v22_apply,
    val_main_cst_7_apply, val_main_v25_apply, val_main_cst_8_apply, squashed_entry]
  rfl

/-- W·σ, entry by entry. -/
theorem wsigma_entry (x0 : Mat) (x1 : Sq) (r : Fin 32768) (k : Fin 1024) :
    val_main_v32 (F := Ideal) x0 x1 (ix2 r k) = ∑ j : Fin 1024, x0 (ix2 r j) * x1 (ix2 j k) := by
  rw [val_main_v32_apply]
  refine Finset.sum_congr rfl fun j _ => ?_
  rw [lidx32, ridx32]

/-- a of a row. -/
theorem a_entry (x0 : Mat) (x1 : Sq) (x2 : Mat) (x3 : Col) (r : Fin 32768) :
    val_main_v34 (F := Ideal) x0 x1 x2 x3 (ix1 r)
      = form (fun k => x0 (ix2 r k)) (fun j k => x1 (ix2 j k))
          (fun k => x0 (ix2 r k) - x3 (ix2 r (0 : Fin 1)) * x2 (ix2 r k)) := by
  rw [val_main_v34_apply, val_main_cst_12_apply, Ideal.ofBits_def, word_zero, zero_add]
  unfold form
  refine Finset.sum_congr rfl fun k _ => ?_
  rw [idx34, val_main_v33_apply, wsigma_entry, val_main_v2_apply, val_main_v1_apply, val_main_v0_apply, step_idx0]
  rfl

/-- b of a row. -/
theorem b_entry (x0 : Mat) (x1 : Sq) (x4 : Mat) (r : Fin 32768) :
    val_main_v36 (F := Ideal) x0 x1 x4 (ix1 r)
      = form (fun k => x0 (ix2 r k)) (fun j k => x1 (ix2 j k)) (fun k => squash (x4 (ix2 r k))) := by
  rw [val_main_v36_apply, val_main_cst_13_apply, Ideal.ofBits_def, word_zero, zero_add]
  unfold form
  refine Finset.sum_congr rfl fun k _ => ?_
  rw [idx36, val_main_v35_apply, wsigma_entry, squashed_entry]
  rfl

/-- The geometry term of a row. -/
theorem geom_entry (x0 : Mat) (x1 : Sq) (x2 : Mat) (x3 : Col) (x4 : Mat) (r : Fin 32768) :
    val_main_v42 (F := Ideal) x0 x1 x2 x3 x4 (ix1 r)
      = geom (fun k => x0 (ix2 r k)) (fun k => x2 (ix2 r k)) (fun k => squash (x4 (ix2 r k)))
          (x3 (ix2 r (0 : Fin 1))) (fun j k => x1 (ix2 j k)) := by
  rw [val_main_v42_apply, val_main_v41_apply, val_main_v40_apply, val_main_cst_14_apply, val_main_v39_apply,
    val_main_v38_apply, val_main_v37_apply, a_entry, b_entry, idx37]
  rfl

/-- The geometry term over all rows. -/
theorem geom_total (x0 : Mat) (x1 : Sq) (x2 : Mat) (x3 : Col) (x4 : Mat) (i : S_.Idx) :
    val_main_v43 (F := Ideal) x0 x1 x2 x3 x4 i
      = ∑ r : Fin 32768, geom (fun k => x0 (ix2 r k)) (fun k => x2 (ix2 r k)) (fun k => squash (x4 (ix2 r k)))
          (x3 (ix2 r (0 : Fin 1))) (fun j k => x1 (ix2 j k)) := by
  rw [val_main_v43_apply, val_main_cst_15_apply, Ideal.ofBits_def, word_zero, zero_add, sum_idx1]
  exact Finset.sum_congr rfl fun r _ => geom_entry x0 x1 x2 x3 x4 r

/-- THE REFERENCE'S SCALAR before its last reshape is the loss taken over all rows at once. -/
theorem scalar_eq (x0 : Mat) (x1 : Sq) (x2 : Mat) (x3 : Col) (x4 : Mat) (i : S_.Idx) :
    val_main_v45 (F := Ideal) x0 x1 x2 x3 x4 i
      = wholeLoss (fun r k => x0 (ix2 r k)) (fun r k => x2 (ix2 r k)) (fun r k => x4 (ix2 r k))
          (fun r => x3 (ix2 r (0 : Fin 1))) (fun j k => x1 (ix2 j k)) := by
  rw [val_main_v45_apply, val_main_v31_apply, val_main_v44_apply, val_main_v30_apply, val_main_cst_16_apply,
    val_main_cst_11_apply, activation_total, binary_total, geom_total]
  rfl

end Cert.ReferenceIdeal.Whole

end
-- ==== Proof.Bridge.lean ====
/-
  The two results are one function of the arguments.

  The kernel program's result is the loss taken block by block (the zero the host's sum starts from plus the 64 tile
  entries); the reference's is the loss taken over all rows at once.  For real W, σ, Q and s these are equal
  (`blocks_eq_whole`), and both programs present the number through the same last re-layout to a one-entry vector.
-/
import proofs.«153995_j2276332667063_2_alg».proof.Proof.KernelRun
import proofs.«153995_j2276332667063_2_alg».proof.Proof.RefValue

noncomputable section

namespace Cert.Bridge

open Idealize.ShloMosaic Idealize.ShloMosaic.ValueIdx Cert.RoundLoss

/-- The kernel program's scalar is the loss taken block by block. -/
theorem kernel_scalar (X0 : Cert.KernelIdeal.S32768x1024.Idx → EReal) (X1 : Cert.KernelIdeal.S1024x1024.Idx → EReal)
    (X2 : Cert.KernelIdeal.S32768x1024.Idx → EReal) (X3 : Cert.KernelIdeal.S32768x1.Idx → EReal)
    (X4 : Cert.KernelIdeal.S32768x1024.Idx → EReal) (i : Cert.KernelIdeal.S_.Idx) :
    Cert.KernelIdeal.Tail.total (Cert.KernelIdeal.Whole.tiles X0 X1 X2 X3 X4) i
      = blocksLoss (fun r k => X0 (ix2 r k)) (fun r k => X2 (ix2 r k)) (fun r k => X4 (ix2 r k))
          (fun r => X3 (ix2 r (0 : Fin 1))) (fun j k => X1 (ix2 j k)) := by
  rw [Cert.KernelIdeal.Tail.total_apply]
  rfl

/-- For real entries the reference's result and the kernel program's are the same one-entry vector. -/
theorem results_agree (x0 : Cert.KernelIdeal.S32768x1024.Idx → EReal) (x1 : Cert.KernelIdeal.S1024x1024.Idx → EReal)
    (x2 : Cert.KernelIdeal.S32768x1024.Idx → EReal) (x3 : Cert.KernelIdeal.S32768x1.Idx → EReal)
    (x4 : Cert.KernelIdeal.S32768x1024.Idx → EReal)
    (h0 : ∀ i, IsReal (x0 i)) (h1 : ∀ i, IsReal (x1 i)) (h2 : ∀ i, IsReal (x2 i)) (h3 : ∀ i, IsReal (x3 i)) :
    Cert.ReferenceIdeal.Read.val_main_v46 (F := Ideal) x0 x1 x2 x3 x4
      = shapeCast Cert.KernelIdeal.S1 (Cert.KernelIdeal.Tail.total (Cert.KernelIdeal.Whole.tiles x0 x1 x2 x3 x4))
          Cert.KernelIdeal.Gen.shapeCasts_S_S1 := by
  have e : Cert.ReferenceIdeal.Read.val_main_v45 (F := Ideal) x0 x1 x2 x3 x4
      = Cert.KernelIdeal.Tail.total (Cert.KernelIdeal.Whole.tiles x0 x1 x2 x3 x4) := funext fun i => by
    rw [Cert.ReferenceIdeal.Whole.scalar_eq, kernel_scalar]
    exact (blocks_eq_whole _ _ _ _ _ (fun r k => h0 _) (fun r k => h2 _) (fun r => h3 _) (fun j k => h1 _)).symm
  unfold Cert.ReferenceIdeal.Read.val_main_v46
  rw [e]

end Cert.Bridge

end
-- ==== Proof.Finite.lean ====
/-
  The precondition, read: every entry of the four arrays it tests is a real number.

  The printed predicate is the conjunction of one test per float argument, each "every |x| is below +∞".  A
  conjunction of bits that is 1 has both bits 1; a reduction by `and` into one result that is 1 had a 1 at every
  index; and an extended real whose absolute value is strictly below +∞ is neither infinity, so it is real.
-/
import proofs.«153995_j2276332667063_2_alg».proof.Proof.Gen.Pre_finite_inputs
import proofs.«153995_j2276332667063_2_alg».proof.Proof.Reals
import Idealize.ShloMosaic.Lib.ReduceAll
import Idealize.ShloMosaic.Lib.Affine
import Idealize.ShloMosaic.Lib.ValueIdx
import Idealize.ShloMosaic.Lib.Pipeline.Value

noncomputable section

namespace Cert.Pre_finite_inputs.Entries

open Idealize.ShloMosaic Idealize.ShloMosaic.ValueIdx Cert.Pre_finite_inputs Cert.RoundLoss

instance : Subsingleton S_.Idx := ⟨fun a b => funext fun d => d.elim0⟩

/-- The f32 word 0x7F800000 denotes +∞. -/
theorem word_inf : Ideal.ofBits .f32 0x7F800000#32 = ⊤ := by simp [Ideal.ofBits, Ideal.ieee]

/-- An extended real whose absolute value compares below +∞ is real. -/
theorem real_of_abs_lt_inf (x : EReal) (h : Ideal.cmp .olt (max x (-x)) (Ideal.ofBits .f32 0x7F800000#32) = 1#1) :
    IsReal x := by
  rw [word_inf] at h
  induction x using EReal.rec
  · simp [Ideal.cmp] at h
  · exact ⟨_, rfl⟩
  · simp [Ideal.cmp] at h

/-- One test of the predicate: if "all |x| < +∞" holds of an array then each of its entries is real. -/
theorem entries_real {s : Shape} {axes : List (Fin s.rank)} (x : FVec Ideal s .f32)
    (hb : S_.BroadcastsInDim s (![] : Fin 0 → Fin s.rank)) (h' : s.ReducesTo axes S_) (hu : 0 < S_.numel)
    (e : Host.reduce IntOp.andi (cmpf .olt (Host.absf x) (broadcastInDim s ![] hb (constant (F := Ideal) S_ .f32 0x7F800000#32)))
          (constantI S_ 1 1#1) h' hu ix0 = 1#1) (i : s.Idx) : IsReal (x i) := by
  have hi := Host.reduce_andi_all _ _ h' hu ix0 e i
  have hc : broadcastInDim s ![] hb (constant (F := Ideal) S_ .f32 0x7F800000#32) i = Ideal.ofBits .f32 0x7F800000#32 :=
    broadcastInDim_apply _ hb (constant (F := Ideal) S_ .f32 0x7F800000#32) i (fun a => a.elim0) (fun a => a.elim0)
  have hi' : Ideal.cmp .olt (max (x i) (-(x i)))
      (broadcastInDim s ![] hb (constant (F := Ideal) S_ .f32 0x7F800000#32) i) = 1#1 := hi
  rw [hc] at hi'
  exact real_of_abs_lt_inf (x i) hi'

/-- Under the precondition every entry of W, σ, Q and s is real. -/
theorem real_of_pre (x0 : FVec Ideal S32768x1024 .f32) (x1 : FVec Ideal S1024x1024 .f32) (x2 : FVec Ideal S32768x1024 .f32)
    (x3 : FVec Ideal S32768x1 .f32) (x4 : FVec Ideal S32768x1024 .f32)
    (h : fn (F := Ideal) x0 x1 x2 x3 x4 = fun _ => 1#1) :
    (∀ i, IsReal (x0 i)) ∧ (∀ i, IsReal (x1 i)) ∧ (∀ i, IsReal (x2 i)) ∧ (∀ i, IsReal (x3 i)) := by
  have h0 := congrFun h ix0
  dsimp only [fn, fn_part1] at h0
  obtain ⟨h1, -⟩ := IntOp.andi_eq_one.mp h0
  obtain ⟨h2, e3⟩ := IntOp.andi_eq_one.mp h1
  obtain ⟨h3, e2⟩ := IntOp.andi_eq_one.mp h2
  obtain ⟨e0, e1⟩ := IntOp.andi_eq_one.mp h3
  exact ⟨entries_real x0 _ _ _ e0, entries_real x1 _ _ _ e1, entries_real x2 _ _ _ e2, entries_real x3 _ _ _ e3⟩

end Cert.Pre_finite_inputs.Entries

end
-- ==== Proof.lean ====
/-
  The kernel computes a rounding loss of a 32768 × 1024 weight matrix W against a grid Q with per-row steps s, rounding
  variables Θ and a 1024 × 1024 form σ:   Σ_rows d σ dᵀ  +  λ_reg · Σ (1 − (2t − 1)²)  +  λ · Σ_rows (2 (a − s·b))²,
  with t the squashed Θ, d = W − s·(Q + t), a = (W σ)·(W − s·Q) and b = (W σ)·t row by row.

  The Pallas kernel takes 512 rows per grid point, forms the three sums over those rows, scales and adds them, and
  stores the number over an [1, 8, 128] tile; the host adds the 64 tiles' first entries.  The reference takes each
  sum over all rows and scales once.  On the extended reals the two totals differ only by how finite sums are grouped,
  by three products regrouped over a sum (which needs real entries: the precondition), by the square of 2t − 1 spelt
  as a power of its absolute value, and by the literal 0.6 spelt 0.5 · 1.2 — whose f32 words multiply to it exactly.

  Modules:  Reals (real extended reals, the literals, the three laws) · RowLoss (the loss row by row; the two totals are
  equal) · BlockValue (what one grid point stores) · KernelArray (the output array after the run) · HostTail, KernelRun
  (the program's result and run) · RefValue (the reference's result) · Finite (the precondition gives real entries) ·
  Bridge (the two results are one function).  The frames of the two kernel programs are the generated ones; the
  reference's frame is its generated run with the result dropped; the idealization rewrote nothing.
-/
import proofs.«153995_j2276332667063_2_alg».proof.Defs
import proofs.«153995_j2276332667063_2_alg».proof.Proof.Gen.Kernel
import proofs.«153995_j2276332667063_2_alg».proof.Proof.Gen.Kernel.Skeleton
import proofs.«153995_j2276332667063_2_alg».proof.Proof.Gen.Kernel.Launch
import proofs.«153995_j2276332667063_2_alg».proof.Proof.Gen.Kernel.Points
import proofs.«153995_j2276332667063_2_alg».proof.Proof.Gen.Kernel.Frame
import proofs.«153995_j2276332667063_2_alg».proof.Proof.Gen.KernelIdeal
import proofs.«153995_j2276332667063_2_alg».proof.Proof.Gen.KernelIdeal.Skeleton
import proofs.«153995_j2276332667063_2_alg».proof.Proof.Gen.KernelIdeal.Launch
import proofs.«153995_j2276332667063_2_alg».proof.Proof.Gen.KernelIdeal.Points
import proofs.«153995_j2276332667063_2_alg».proof.Proof.Gen.KernelIdeal.Frame
import proofs.«153995_j2276332667063_2_alg».proof.Proof.Gen.ReferenceIdeal
import proofs.«153995_j2276332667063_2_alg».proof.Proof.Gen.Pre_finite_inputs
import proofs.«153995_j2276332667063_2_alg».proof.Proof.Gen.ReferenceIdeal.Run
import proofs.«153995_j2276332667063_2_alg».proof.Proof.Gen.ReferenceIdeal.Read
import proofs.«153995_j2276332667063_2_alg».proof.Proof.Bridge
import proofs.«153995_j2276332667063_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree and are finite, the kernel program ends with the loss taken block by block and the
    reference with the loss taken over all rows at once: one number. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3⟩ := Cert.Pre_finite_inputs.Entries.real_of_pre _ _ _ _ _ (hpre c)
  rw [Cert.ReferenceIdeal.Read.val_main_v46_eq, (hagree c).1, (hagree c).2.1, (hagree c).2.2.1, (hagree c).2.2.2.1,
    (hagree c).2.2.2.2]
  exact Cert.Bridge.results_agree _ _ _ _ _ r0 r1 r2 r3

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
